-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40 .f32) (main_v48 : IVec S_ 1) (main_v49 : FVec F S40x128 .f32) (main_v50 : FVec F S40x128 .f32) : IVec S_ 1 :=
  let main_v51 : IVec S40x128 1 := cmpf .olt main_v49 main_v50
  let main_c_19 : IVec S_ 1 := constantI S_ 1 1#1
  let main_v52 : IVec S_ 1 := (fun x v => Host.reduce IntOp.andi x v reducesTo_S40x128_S_d0_1 h_S_) main_v51 main_c_19
  let main_v53 : IVec S_ 1 := andi main_v48 main_v52
  let main_v54 : FVec F S40 .f32 := Host.absf main_arg11
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg7 : FVec F S64 .f32) (main_arg8 : FVec F S128x64 .f32) (main_arg9 : FVec F S128 .f32) (main_arg10 : FVec F S40x128 .f32) (main_arg11 : FVec F S40 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S40x128 .f32 := Host.absf main_arg10
  let main_cst_18 : FVec F S_ .f32 := constant S_ .f32 0x7F800000#32
  let main_v50 : FVec F S40x128 .f32 := broadcastInDim S40x128 ![] bcast_S_S40x128 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S128x64 .f32) (main_arg9 : FVec F S128 .f32) (main_arg10 : FVec F S40x128 .f32) (main_arg11 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S64x128 .f32) (main_arg3 : FVec F S64 .f32) (main_arg4 : FVec F S64x64 .f32) (main_arg5 : FVec F S64 .f32) (main_arg6 : FVec F S64x64 .f32) (main_arg7 : FVec F S64 .f32) (main_arg8 : FVec F S128x64 .f32) (main_arg9 : FVec F S128 .f32) (main_arg10 : FVec F S40x128 .f32) (main_arg11 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S40x128 : Shape := ⟨2, ![40, 128]⟩
abbrev S40 : Shape := ⟨1, ![40]⟩
abbrev S128x40 : Shape := ⟨2, ![128, 40]⟩
abbrev S1x64 : Shape := ⟨2, ![1, 64]⟩
abbrev S1x128 : Shape := ⟨2, ![1, 128]⟩
abbrev S1x40 : Shape := ⟨2, ![1, 40]⟩
abbrev S10000x64 : Shape := ⟨2, ![10000, 64]⟩
abbrev S2000x128 : Shape := ⟨2, ![2000, 128]⟩
abbrev S2000x64 : Shape := ⟨2, ![2000, 64]⟩
abbrev S200x10000 : Shape := ⟨2, ![200, 10000]⟩
abbrev S200x64 : Shape := ⟨2, ![200, 64]⟩
abbrev S10000x40 : Shape := ⟨2, ![10000, 40]⟩
abbrev S200x128 : Shape := ⟨2, ![200, 128]⟩
abbrev S200x40 : Shape := ⟨2, ![200, 40]⟩

abbrev nBuf : Space → Nat
  | .hbm => 23
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S40x128, .f32⟩
  | .hbm, ⟨11, _⟩ => ⟨S40, .f32⟩
  | .hbm, ⟨12, _⟩ => ⟨S128x64, .f32⟩
  | .hbm, ⟨13, _⟩ => ⟨S64x128, .f32⟩
  | .hbm, ⟨14, _⟩ => ⟨S128x40, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x128, .f32⟩
  | .hbm, ⟨19, _⟩ => ⟨S1x40, .f32⟩
  | .hbm, ⟨20, _⟩ => ⟨S10000x64, .f32⟩
  | .hbm, ⟨21, _⟩ => ⟨S10000x64, .f32⟩
  | .hbm, ⟨22, _⟩ => ⟨S10000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S200x10000, .f32⟩
  | .local _ .vmem, ⟨9, _⟩ => ⟨S200x10000, .f32⟩
  | .local _ .vmem, ⟨10, _⟩ => ⟨S10000x64, .f32⟩
  | .local _ .vmem, ⟨11, _⟩ => ⟨S64x64, .f32⟩
  | .local _ .vmem, ⟨12, _⟩ => ⟨S1x64, .f32⟩
  | .local _ .vmem, ⟨13, _⟩ => ⟨S200x64, .f32⟩
  | .local _ .vmem, ⟨14, _⟩ => ⟨S200x64, .f32⟩
  | .local _ .vmem, ⟨15, _⟩ => ⟨S200x10000, .f32⟩
  | .local _ .vmem, ⟨16, _⟩ => ⟨S200x10000, .f32⟩
  | .local _ .vmem, ⟨17, _⟩ => ⟨S10000x64, .f32⟩
  | .local _ .vmem, ⟨18, _⟩ => ⟨S200x128, .f32⟩
  | .local _ .vmem, ⟨19, _⟩ => ⟨S200x128, .f32⟩
  | .local _ .vmem, ⟨20, _⟩ => ⟨S64x128, .f32⟩
  | .local _ .vmem, ⟨21, _⟩ => ⟨S1x128, .f32⟩
  | .local _ .vmem, ⟨22, _⟩ => ⟨S128x40, .f32⟩
  | .local _ .vmem, ⟨23, _⟩ => ⟨S1x40, .f32⟩
  | .local _ .vmem, ⟨24, _⟩ => ⟨S200x40, .f32⟩
  | .local _ .vmem, ⟨25, _⟩ => ⟨S200x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S200x40 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S64x128_S128x64_1_0 : S64x128.Transposes [1, 0] S128x64
  transposes_S128x64_S64x128_1_0 : S128x64.Transposes [1, 0] S64x128
  transposes_S40x128_S128x40_1_0 : S40x128.Transposes [1, 0] S128x40
  shapeCasts_S64_S1x64 : S64.ShapeCasts S1x64
  shapeCasts_S128_S1x128 : S128.ShapeCasts S1x128
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  inb_S200x40_S200x40_0_0 : ∀ a, (![0, 0] : Fin 2 → Nat) a + S200x40.size a ≤ S200x40.size a
  h_S200x40 : 0 < S200x40.numel
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S200x64_S64x128_S200x128_1_0_0_1_n_n_wf : DotDims.WF S200x64 S64x128 S200x128 [1] [0] [0] [1] [] []
  dot_S200x128_S128x40_S200x40_1_0_0_1_n_n_wf : DotDims.WF S200x128 S128x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S10000x64.size a
  hwx0_5 : ∀ i : grid0.Coords, EltTy.bits .f32 = 32 ∨ (Rect.block (s := S10000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .f32 = 32 ∨ (Rect.block (s := S10000x64) S200x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x128.size a ≤ S10000x128.size a
  hwx2_2 : ∀ i : grid2.Coords, EltTy.bits .f32 = 32 ∨ (Rect.block (s := S10000x128) S200x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x40.size a ≤ S128x40.size a
  hwx2_5 : ∀ i : grid2.Coords, EltTy.bits .f32 = 32 ∨ (Rect.block (s := S128x40) S128x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S200x40.size a ≤ S10000x40.size a
  hwx2_7 : ∀ i : grid2.Coords, EltTy.bits .f32 = 32 ∨ (Rect.block (s := S10000x40) S200x40.size (cc2_transform_7 i) (hinb2_7 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x64_S64x128_S200x128_1_0_0_1_n_n : DotDims S200x64 S64x128 S200x128 where
  lhsContracting := [1]
  rhsContracting := [0]
  lhsNonContracting := [0]
  rhsNonContracting := [1]
  lhsBatch := []
  rhsBatch := []
  wf := dot_S200x64_S64x128_S200x128_1_0_0_1_n_n_wf
def dot_S200x128_S128x40_S200x40_1_0_0_1_n_n : DotDims S200x128 S128x40 S200x40 where
  lhsContracting := [1]
  rhsContracting := [0]
  lhsNonContracting := [0]
  rhsNonContracting := [1]
  lhsBatch := []
  rhsBatch := []
  wf := dot_S200x128_S128x40_S200x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S200x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S200x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S128x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S200x40.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S40x128 : Shape := ⟨2, ![40, 128]⟩
abbrev S40 : Shape := ⟨1, ![40]⟩
abbrev S10000x64 : Shape := ⟨2, ![10000, 64]⟩
abbrev S1x64 : Shape := ⟨2, ![1, 64]⟩
abbrev S_ : Shape := ⟨0, ![]⟩
abbrev S1x128 : Shape := ⟨2, ![1, 128]⟩
abbrev S128x40 : Shape := ⟨2, ![128, 40]⟩
abbrev S10000x40 : Shape := ⟨2, ![10000, 40]⟩
abbrev S1x40 : Shape := ⟨2, ![1, 40]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S40x128, .f32⟩
  | .hbm, ⟨11, _⟩ => ⟨S40, .f32⟩
  | .hbm, ⟨12, _⟩ => ⟨S128x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S64x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S128x40, .f32⟩
  | .hbm, ⟨37, _⟩ => ⟨S10000x40, .f32⟩
  | .hbm, ⟨38, _⟩ => ⟨S1x40, .f32⟩
  | .hbm, ⟨39, _⟩ => ⟨S10000x40, .f32⟩
  | .hbm, ⟨40, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S128x64_S64x128_1_0 : S128x64.Transposes [1, 0] S64x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S40x128_S128x40_1_0 : S40x128.Transposes [1, 0] S128x40
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S10000x10000_S10000x64_S10000x64_1_0_0_1_n_n_wf : DotDims.WF S10000x10000 S10000x64 S10000x64 [1] [0] [0] [1] [] []
  dot_S10000x64_S64x128_S10000x128_1_0_0_1_n_n_wf : DotDims.WF S10000x64 S64x128 S10000x128 [1] [0] [0] [1] [] []
  dot_S10000x128_S128x40_S10000x40_1_0_0_1_n_n_wf : DotDims.WF S10000x128 S128x40 S10000x40 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.RunNamed.lean ====
/-
  THE RUN WITH THE RESULT NAMED.

  @main is a stretch of host operations followed by three regions.  The generated frame runs these four segments from
  the launch memory and reads every unscoped buffer of the final state at the contents of the last boundary, `W4`; it
  then keeps only the twelve arguments.  Here the same run keeps the result buffer as well: after every weakly fair
  execution the result holds `W4` at the result's buffer — the third region's array after its write-backs — and the
  arguments are as launched.
-/
import proofs.«169441_g13365938225258_cont_week2b_87_4_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Named

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«169441_g13365938225258_cont_week2b_87_4_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«169441_g13365938225258_cont_week2b_87_4_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«169441_g13365938225258_cont_week2b_87_4_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«169441_g13365938225258_cont_week2b_87_4_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«169441_g13365938225258_cont_week2b_87_4_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.Spec.lean ====
/-
  THE ADAPTER NETWORK, STAGE BY STAGE, as functions of whole arrays with any number of rows.

  The network maps a table of feature rows through
    down : rows ↦ ((x · Wdᵀ + bd) · W1 + b1)                                  (two dense layers),
    prop1: rows of H ↦ max(H · a, 0) · W2 + b2                                 (a propagation by H, rectified, one dense layer),
    prop2: rows of H, x ↦ (x + ((H · b) · Wuᵀ + bu)) · Wcᵀ + bc                (a propagation, a dense layer, the residual, the head).
  Every stage is ROW-LOCAL in its tall operand: row p of the result is a function of row p of the tall operand (of H, and
  of x) and of the whole of the other operands.  So a stage applied to a block of rows (rows off, off + 1, … of the tall
  operand) is the same block of rows of the stage applied to the whole array (`down_block`, `prop1_block`,
  `prop2_block`): a grid of row blocks computes the whole stage.  Every sum is compared term by term in the same order:
  no algebra of the extended reals is used and nothing needs to be finite.
-/
import proofs.«169441_g13365938225258_cont_week2b_87_4_alg».proof.Proof.LibProdRows
import proofs.«169441_g13365938225258_cont_week2b_87_4_alg».proof.Proof.LibRowBias

noncomputable section

open scoped BigOperators

namespace Cert.Adapter

open Idealize.ShloMosaic Idealize.ShloMosaic.ValueIdx Cert.DenseRow Cert.RowBias
open Cert.KernelIdeal.RegionValue (prodArr prodArr_apply)
open Cert.ProdRows

/-! ## The three stages -/

/-- The down projection followed by the first layer's weights: `(x · wdt + bd) · w1 + b1` on every row. -/
def down {R : ℕ} (x : (⟨2, ![R, 128]⟩ : Shape).Idx → EReal) (wdt : (⟨2, ![128, 64]⟩ : Shape).Idx → EReal)
    (bd : (⟨2, ![1, 64]⟩ : Shape).Idx → EReal) (w1 : (⟨2, ![64, 64]⟩ : Shape).Idx → EReal)
    (b1 : (⟨2, ![1, 64]⟩ : Shape).Idx → EReal) : (⟨2, ![R, 64]⟩ : Shape).Idx → EReal :=
  layerArr (layerArr x wdt (unrow bd)) w1 (unrow b1)

/-- The first propagation: `max(h · a, 0) · w2 + b2` on every row of `h`. -/
def prop1 {R : ℕ} (h : (⟨2, ![R, 10000]⟩ : Shape).Idx → EReal) (a : (⟨2, ![10000, 64]⟩ : Shape).Idx → EReal)
    (w2 : (⟨2, ![64, 64]⟩ : Shape).Idx → EReal) (b2 : (⟨2, ![1, 64]⟩ : Shape).Idx → EReal) :
    (⟨2, ![R, 64]⟩ : Shape).Idx → EReal :=
  layerArr (actArr zf (prodArr h a)) w2 (unrow b2)

/-- The second propagation, the up projection, the residual and the head:
    `(x + ((h · b) · wut + bu)) · wct + bc` on every row. -/
def prop2 {R : ℕ} (h : (⟨2, ![R, 10000]⟩ : Shape).Idx → EReal) (b : (⟨2, ![10000, 64]⟩ : Shape).Idx → EReal)
    (x : (⟨2, ![R, 128]⟩ : Shape).Idx → EReal) (wut : (⟨2, ![64, 128]⟩ : Shape).Idx → EReal)
    (bu : (⟨2, ![1, 128]⟩ : Shape).Idx → EReal) (wct : (⟨2, ![128, 40]⟩ : Shape).Idx → EReal)
    (bc : (⟨2, ![1, 40]⟩ : Shape).Idx → EReal) : (⟨2, ![R, 40]⟩ : Shape).Idx → EReal :=
  layerArr (addArr x (layerArr (prodArr h b) wut (unrow bu))) wct (unrow bc)

/-- The whole network: the three stages composed; the propagation matrix `H` and the feature table `x` are each used
    twice.  The weights come already transposed and the biases as one-row arrays, as the stages take them. -/
def net (x : (⟨2, ![10000, 128]⟩ : Shape).Idx → EReal) (H : (⟨2, ![10000, 10000]⟩ : Shape).Idx → EReal)
    (wdt : (⟨2, ![128, 64]⟩ : Shape).Idx → EReal) (bd : (⟨2, ![1, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (wut : (⟨2, ![64, 128]⟩ : Shape).Idx → EReal) (bu : (⟨2, ![1, 128]⟩ : Shape).Idx → EReal)
    (wct : (⟨2, ![128, 40]⟩ : Shape).Idx → EReal) (bc : (⟨2, ![1, 40]⟩ : Shape).Idx → EReal) :
    (⟨2, ![10000, 40]⟩ : Shape).Idx → EReal :=
  prop2 H (prop1 H (down x wdt bd w1 b1) w2 b2) x wut bu wct bc

/-! ## A block of rows of a stage is the stage of the block

`y` is an index of the block's result and `i` the index of the whole result `off` rows further down; the block's tall
operands are the whole ones read `off` rows down. -/

theorem down_block {R R' : ℕ} (x : (⟨2, ![R, 128]⟩ : Shape).Idx → EReal) (X : (⟨2, ![R', 128]⟩ : Shape).Idx → EReal)
    (wdt : (⟨2, ![128, 64]⟩ : Shape).Idx → EReal) (bd : (⟨2, ![1, 64]⟩ : Shape).Idx → EReal)
    (w1 : (⟨2, ![64, 64]⟩ : Shape).Idx → EReal) (b1 : (⟨2, ![1, 64]⟩ : Shape).Idx → EReal) (off : ℕ)
    (y : (⟨2, ![R, 64]⟩ : Shape).Idx) (i : (⟨2, ![R', 64]⟩ : Shape).Idx)
    (hi0 : (i 0).val = off + (y 0).val) (hi1 : (i 1).val = (y 1).val)
    (hx : ∀ (u : (⟨2, ![R, 128]⟩ : Shape).Idx) (z : (⟨2, ![R', 128]⟩ : Shape).Idx),
      (z 0).val = off + (u 0).val → (z 1).val = (u 1).val → x u = X z) :
    down x wdt bd w1 b1 y = down X wdt bd w1 b1 i := by
  obtain ⟨p, c, rfl⟩ : ∃ (p : Fin R) (c : Fin 64), y = ix2 p c := ⟨y 0, y 1, eq_ix2 y⟩
  obtain ⟨p', c', rfl⟩ : ∃ (p' : Fin R') (c' : Fin 64), i = ix2 p' c' := ⟨i 0, i 1, eq_ix2 i⟩
  obtain rfl : c' = c := Fin.ext hi1
  exact layerArr_rows _ _ w1 (unrow b1) p p'
    (fun k => layerArr_rows x X wdt (unrow bd) p p' (fun j => hx (ix2 p j) (ix2 p' j) hi0 rfl) k) c'

theorem prop1_block {R R' : ℕ} (h : (⟨2, ![R, 10000]⟩ : Shape).Idx → EReal) (H : (⟨2, ![R', 10000]⟩ : Shape).Idx → EReal)
    (a : (⟨2, ![10000, 64]⟩ : Shape).Idx → EReal) (w2 : (⟨2, ![64, 64]⟩ : Shape).Idx → EReal)
    (b2 : (⟨2, ![1, 64]⟩ : Shape).Idx → EReal) (off : ℕ)
    (y : (⟨2, ![R, 64]⟩ : Shape).Idx) (i : (⟨2, ![R', 64]⟩ : Shape).Idx)
    (hi0 : (i 0).val = off + (y 0).val) (hi1 : (i 1).val = (y 1).val)
    (hh : ∀ (u : (⟨2, ![R, 10000]⟩ : Shape).Idx) (z : (⟨2, ![R', 10000]⟩ : Shape).Idx),
      (z 0).val = off + (u 0).val → (z 1).val = (u 1).val → h u = H z) :
    prop1 h a w2 b2 y = prop1 H a w2 b2 i := by
  obtain ⟨p, c, rfl⟩ : ∃ (p : Fin R) (c : Fin 64), y = ix2 p c := ⟨y 0, y 1, eq_ix2 y⟩
  obtain ⟨p', c', rfl⟩ : ∃ (p' : Fin R') (c' : Fin 64), i = ix2 p' c' := ⟨i 0, i 1, eq_ix2 i⟩
  obtain rfl : c' = c := Fin.ext hi1
  exact layerArr_rows _ _ w2 (unrow b2) p p'
    (fun k => actArr_rows zf _ _ p p' (fun j => prodArr_rows h H a p p' (fun q => hh (ix2 p q) (ix2 p' q) hi0 rfl) j) k) c'

theorem prop2_block {R R' : ℕ} (h : (⟨2, ![R, 10000]⟩ : Shape).Idx → EReal) (H : (⟨2, ![R', 10000]⟩ : Shape).Idx → EReal)
    (b : (⟨2, ![10000, 64]⟩ : Shape).Idx → EReal)
    (x : (⟨2, ![R, 128]⟩ : Shape).Idx → EReal) (X : (⟨2, ![R', 128]⟩ : Shape).Idx → EReal)
    (wut : (⟨2, ![64, 128]⟩ : Shape).Idx → EReal) (bu : (⟨2, ![1, 128]⟩ : Shape).Idx → EReal)
    (wct : (⟨2, ![128, 40]⟩ : Shape).Idx → EReal) (bc : (⟨2, ![1, 40]⟩ : Shape).Idx → EReal) (off : ℕ)
    (y : (⟨2, ![R, 40]⟩ : Shape).Idx) (i : (⟨2, ![R', 40]⟩ : Shape).Idx)
    (hi0 : (i 0).val = off + (y 0).val) (hi1 : (i 1).val = (y 1).val)
    (hh : ∀ (u : (⟨2, ![R, 10000]⟩ : Shape).Idx) (z : (⟨2, ![R', 10000]⟩ : Shape).Idx),
      (z 0).val = off + (u 0).val → (z 1).val = (u 1).val → h u = H z)
    (hx : ∀ (u : (⟨2, ![R, 128]⟩ : Shape).Idx) (z : (⟨2, ![R', 128]⟩ : Shape).Idx),
      (z 0).val = off + (u 0).val → (z 1).val = (u 1).val → x u = X z) :
    prop2 h b x wut bu wct bc y = prop2 H b X wut bu wct bc i := by
  obtain ⟨p, c, rfl⟩ : ∃ (p : Fin R) (c : Fin 40), y = ix2 p c := ⟨y 0, y 1, eq_ix2 y⟩
  obtain ⟨p', c', rfl⟩ : ∃ (p' : Fin R') (c' : Fin 40), i = ix2 p' c' := ⟨i 0, i 1, eq_ix2 i⟩
  obtain rfl : c' = c := Fin.ext hi1
  exact layerArr_rows _ _ wct (unrow bc) p p'
    (fun k => addArr_rows x _ X _ p p' (fun j => hx (ix2 p j) (ix2 p' j) hi0 rfl)
      (fun j => layerArr_rows _ _ wut (unrow bu) p p'
        (fun q => prodArr_rows h H b p p' (fun r => hh (ix2 p r) (ix2 p' r) hi0 rfl) q) j) k) c'

end Cert.Adapter

end
-- ==== Proof.Payload.lean ====
/-
  WHAT EACH BODY STORES: a stage of the network applied to the blocks it loaded.

  Each of the three bodies loads its windows' blocks whole, computes, and stores one value into the whole output block.
  At the ideal values that value is a stage of the network (Spec: `down`, `prop1`, `prop2`) at the block's row count:
  • the first body stores `down` of its 2000 rows of x (two dense layers, each a product into a zero accumulator plus a
    one-row bias broadcast over the rows);
  • the second stores `prop1` of its 200 rows of H and the whole of a (the change of float format before the product is
    the identity at the ideal values; the rectifier compares with the zero word);
  • the third stores `prop2` of its 200 rows of H, the whole of b and its 200 rows of x.
  A cast of an array to its own shape is the identity.  No sum is regrouped.
-/
import proofs.«169441_g13365938225258_cont_week2b_87_4_alg».proof.Proof.Gen.KernelIdeal.Skeleton
import proofs.«169441_g13365938225258_cont_week2b_87_4_alg».proof.Proof.Spec

noncomputable section

namespace Cert.KernelIdeal.Body

open Idealize.ShloMosaic Idealize.ShloMosaic.ValueIdx Cert.KernelIdeal Cert.KernelIdeal.Gen
open Cert.DenseRow Cert.RowBias Cert.PlainDot Cert.ProdRows Cert.Adapter
open Cert.KernelIdeal.RegionValue (prodArr)

/-- The first body's payload is the down stage of its loaded blocks. -/
theorem pay0 (x0 : FVec Ideal S2000x128 .f32) (x1 : FVec Ideal S128x64 .f32) (x2 : FVec Ideal S1x64 .f32)
    (x3 : FVec Ideal S64x64 .f32) (x4 : FVec Ideal S1x64 .f32) :
    k0_pay1 (F := Ideal) x0 x1 x2 x3 x4 = down x0 x1 x2 x3 x4 := by
  unfold k0_pay1 down
  dsimp only
  rw [shapeCast_self x1]
  have e1 : addf (F := Ideal) (matmul (F := Ideal) dot_S2000x128_S128x64_S2000x64_1_0_0_1_n_n none x0 x1 (constant (F := Ideal) S2000x64 .f32 0x00000000#32))
      (broadcastTo S2000x64 (shapeCast S1x64 x2 shapeCasts_S1x64_S1x64) broadcasts_S1x64_S2000x64) = layerArr x0 x1 (unrow x2) :=
    klayer1Arr (DotDims.plain 2000 128 64) rfl rfl (lhs_at 2000 128 64) (rhs_at 2000 128 64) none x0 x1 x2 _ _
  rw [e1]
  exact klayer1Arr (DotDims.plain 2000 64 64) rfl rfl (lhs_at 2000 64 64) (rhs_at 2000 64 64) none _ x3 x4 _ _

/-- The second body's payload is the first propagation of its loaded blocks. -/
theorem pay1 (x0 : FVec Ideal S200x10000 .f32) (x1 : FVec Ideal S10000x64 .f32) (x2 : FVec Ideal S64x64 .f32)
    (x3 : FVec Ideal S1x64 .f32) :
    k1_pay1 (F := Ideal) x0 x1 x2 x3 = prop1 x0 x1 x2 x3 := by
  unfold k1_pay1 prop1
  dsimp only
  rw [shapeCast_self x1]
  have e1 : matmul (F := Ideal) dot_S200x10000_S10000x64_S200x64_1_0_0_1_n_n none (truncf (F := Ideal) .bf16 x0 bitsLt_bf16_f32)
      (truncf (F := Ideal) .bf16 x1 bitsLt_bf16_f32) (constant (F := Ideal) S200x64 .f32 0x00000000#32) = prodArr x0 x1 :=
    kprod (R := 200) (K := 10000) (N := 64) none x0 x1
  rw [e1, kact]
  exact klayer1Arr (DotDims.plain 200 64 64) rfl rfl (lhs_at 200 64 64) (rhs_at 200 64 64) none _ x2 x3 _ _

/-- The third body's payload is the second propagation of its loaded blocks. -/
theorem pay2 (x0 : FVec Ideal S200x10000 .f32) (x1 : FVec Ideal S10000x64 .f32) (x2 : FVec Ideal S200x128 .f32)
    (x3 : FVec Ideal S64x128 .f32) (x4 : FVec Ideal S1x128 .f32) (x5 : FVec Ideal S128x40 .f32) (x6 : FVec Ideal S1x40 .f32) :
    k2_pay1 (F := Ideal) x0 x1 x3 x4 x2 x5 x6 = prop2 x0 x1 x2 x3 x4 x5 x6 := by
  unfold k2_pay1 prop2
  dsimp only
  rw [shapeCast_self x1, shapeCast_self x3, shapeCast_self x5]
  have e1 : matmul (F := Ideal) dot_S200x10000_S10000x64_S200x64_1_0_0_1_n_n none (truncf (F := Ideal) .bf16 x0 bitsLt_bf16_f32)
      (truncf (F := Ideal) .bf16 x1 bitsLt_bf16_f32) (constant (F := Ideal) S200x64 .f32 0x00000000#32) = prodArr x0 x1 :=
    kprod (R := 200) (K := 10000) (N := 64) none x0 x1
  rw [e1]
  have e2 : addf (F := Ideal) (matmul (F := Ideal) (φ₁ := .f32) (φ₂ := .f32) dot_S200x64_S64x128_S200x128_1_0_0_1_n_n none (prodArr x0 x1) x3 (constant (F := Ideal) S200x128 .f32 0x00000000#32))
      (broadcastTo S200x128 (shapeCast S1x128 x4 shapeCasts_S1x128_S1x128) broadcasts_S1x128_S200x128)
        = layerArr (prodArr x0 x1) x3 (unrow x4) :=
    klayer1Arr (DotDims.plain 200 64 128) rfl rfl (lhs_at 200 64 128) (rhs_at 200 64 128) none _ x3 x4 _ _
  rw [e2, addf_eq]
  exact klayer1Arr (DotDims.plain 200 128 40) rfl rfl (lhs_at 200 128 40) (rhs_at 200 128 40) none _ x5 x6 _ _

end Cert.KernelIdeal.Body

end
-- ==== Proof.Region0.lean ====
/-
  THE FIRST REGION'S ARRAY AFTER ITS RUN: the down stage of the arrays the region finds.

  The grid has 5 points; point t loads rows 2000·t … 2000·t + 1999 of x, the whole of the four small operands, and
  writes rows 2000·t … of the result.  What point t writes back is, by the body's payload, the down stage of its
  block of rows, hence — the stage being row-local — rows 2000·t … of the down stage of the whole of x.  The five
  blocks tile the 10000 rows, so after the run the result array IS the down stage of the whole arrays.
  Stated for any contents `V` the region may find its arrays at.
-/
import proofs.«169441_g13365938225258_cont_week2b_87_4_alg».proof.Proof.Gen.KernelIdeal.Frame
import proofs.«169441_g13365938225258_cont_week2b_87_4_alg».proof.Proof.Payload
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.Adapter
open Cert.KernelIdeal.RegionValue (off2_zero)

variable (V : (c : Dev nD) → (b : Ref sig .tc) → Buf (Elt Ideal) ((c : Thread nD τ).loc b))

/-- The printed index maps of the first region, decided over its grid: the row-blocked windows are at block (t, 0), the
    whole windows at block (0, 0). -/
theorem idx0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The transposed down weight's block is the whole array at every point. -/
theorem blk0_1 (c : Dev nD) (t : Fin cfg0.N) : (iblk0 V c 1 t : S128x64.Idx → EReal) = V c main_v0 := by
  obtain ⟨-, -, -, -, e0, e1, -⟩ := idx0 t
  funext u
  unfold iblk0
  rw [View.read_apply]
  show V c main_v0 (((cfg0.win 1).blk t).view.emb u) = V c main_v0 u
  refine congrArg (V c main_v0) ?_
  funext a; apply Fin.ext
  match a with
  | ⟨0, _⟩ => show win0_1.index t (0 : Fin 2) * 128 + 1 * (u 0).val = (u 0).val; omega
  | ⟨1, _⟩ => show win0_1.index t (1 : Fin 2) * 64 + 1 * (u 1).val = (u 1).val; omega

theorem blk0_2 (c : Dev nD) (t : Fin cfg0.N) : (iblk0 V c 2 t : S1x64.Idx → EReal) = V c main_v3 := by
  obtain ⟨-, -, -, -, -, -, e0, e1, -⟩ := idx0 t
  funext u
  unfold iblk0
  rw [View.read_apply]
  show V c main_v3 (((cfg0.win 2).blk t).view.emb u) = V c main_v3 u
  refine congrArg (V c main_v3) ?_
  funext a; apply Fin.ext
  match a with
  | ⟨0, _⟩ => show win0_2.index t (0 : Fin 2) * 1 + 1 * (u 0).val = (u 0).val; omega
  | ⟨1, _⟩ => show win0_2.index t (1 : Fin 2) * 64 + 1 * (u 1).val = (u 1).val; omega

theorem blk0_3 (c : Dev nD) (t : Fin cfg0.N) : (iblk0 V c 3 t : S64x64.Idx → EReal) = V c main_arg4 := by
  obtain ⟨-, -, -, -, -, -, -, -, e0, e1, -⟩ := idx0 t
  funext u
  unfold iblk0
  rw [View.read_apply]
  show V c main_arg4 (((cfg0.win 3).blk t).view.emb u) = V c main_arg4 u
  refine congrArg (V c main_arg4) ?_
  funext a; apply Fin.ext
  match a with
  | ⟨0, _⟩ => show win0_3.index t (0 : Fin 2) * 64 + 1 * (u 0).val = (u 0).val; omega
  | ⟨1, _⟩ => show win0_3.index t (1 : Fin 2) * 64 + 1 * (u 1).val = (u 1).val; omega

theorem blk0_4 (c : Dev nD) (t : Fin cfg0.N) : (iblk0 V c 4 t : S1x64.Idx → EReal) = V c main_v4 := by
  obtain ⟨-, -, -, -, -, -, -, -, -, -, e0, e1⟩ := idx0 t
  funext u
  unfold iblk0
  rw [View.read_apply]
  show V c main_v4 (((cfg0.win 4).blk t).view.emb u) = V c main_v4 u
  refine congrArg (V c main_v4) ?_
  funext a; apply Fin.ext
  match a with
  | ⟨0, _⟩ => show win0_4.index t (0 : Fin 2) * 1 + 1 * (u 0).val = (u 0).val; omega
  | ⟨1, _⟩ => show win0_4.index t (1 : Fin 2) * 64 + 1 * (u 1).val = (u 1).val; omega

/-- The block of x at point t is rows 2000·t … of x. -/
theorem blk0_0 (c : Dev nD) (t : Fin cfg0.N) (u : S2000x128.Idx) (z : S10000x128.Idx)
    (h0 : (z 0).val = t.val * 2000 + (u 0).val) (h1 : (z 1).val = (u 1).val) :
    (iblk0 V c 0 t : S2000x128.Idx → EReal) u = (V c main_arg0 : S10000x128.Idx → EReal) z := by
  obtain ⟨e0, e1, -⟩ := idx0 t
  unfold iblk0
  rw [View.read_apply]
  show V c main_arg0 (((cfg0.win 0).blk t).view.emb u) = V c main_arg0 z
  refine congrArg (V c main_arg0) ?_
  funext a; apply Fin.ext
  match a with
  | ⟨0, _⟩ => show win0_0.index t (0 : Fin 2) * 2000 + 1 * (u 0).val = (z 0).val; omega
  | ⟨1, _⟩ => show win0_0.index t (1 : Fin 2) * 128 + 1 * (u 1).val = (z 1).val; omega

/-- What the first region's array ends holding: the down stage of the arrays as the region finds them. -/
abbrev A0 (c : Dev nD) : S10000x64.Idx → EReal :=
  down (R := 10000) (V c main_arg0) (V c main_v0) (V c main_v3) (V c main_arg4) (V c main_v4)

/-- WHAT POINT t WRITES BACK is block t of the down stage of the whole arrays. -/
theorem flushed0 (c : Dev nD) (t : Fin cfg0.N) :
    (dat0 V c).flushed 5 t = ((cfg0.win 5).blk t).view.read (Elt Ideal) (A0 V c) := by
  show (cfg0.win 5).cut (grid0.coords t) ((dat0 V c).after 5 t) = _
  rw [after0_5]
  unfold out0_5
  rw [View.canon_unit_zero off2_zero]
  simp only [View.ld_unit_zero (S := S2000x128) off2_zero, View.ld_unit_zero (S := S128x64) off2_zero,
    View.ld_unit_zero (S := S1x64) off2_zero, View.ld_unit_zero (S := S64x64) off2_zero]
  refine (pay0 (iblk0 V c 0 t) (iblk0 V c 1 t) (iblk0 V c 2 t) (iblk0 V c 3 t) (iblk0 V c 4 t)).trans ?_
  rw [blk0_1 V c t, blk0_2 V c t, blk0_3 V c t, blk0_4 V c t]
  obtain ⟨-, -, e0, e1, -⟩ := idx0 t
  funext y
  rw [View.read_apply]
  refine down_block (iblk0 V c 0 t) (V c main_arg0) (V c main_v0) (V c main_v3) (V c main_arg4) (V c main_v4) (t.val * 2000)
    y (((cfg0.win 5).blk t).view.emb y) ?_ ?_ (blk0_0 V c t)
  · show win0_5.index t (0 : Fin 2) * 2000 + 1 * (y 0).val = t.val * 2000 + (y 0).val; omega
  · show win0_5.index t (1 : Fin 2) * 64 + 1 * (y 1).val = (y 1).val; omega

/-- An index of the result array is in point t's block iff each coordinate is in the block's range. -/
theorem mem_blk0 (t : Fin cfg0.N) (i : S10000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v8).slice (win0_5.rect t)).set ↔ _
  rw [View.set_slice_whole, Rect.mem_set_unit]
  exact Iff.rfl

/-- Row r of the result is in the block of point r / 2000. -/
theorem cover0 (i : S10000x64.Idx) : ∃ t : Fin cfg0.N, (cfg0.win 5).flush t = true ∧ i ∈ ((cfg0.win 5).blk t).view.set := by
  have hi0 : (i 0).val < 10000 := (i 0).isLt
  have hi1 : (i 1).val < 64 := (i 1).isLt
  have hN : cfg0.N = 5 := N_0
  refine ⟨⟨(i 0).val / 2000, by rw [hN]; omega⟩, flush0_5 _, ?_⟩
  rw [mem_blk0]
  obtain ⟨-, -, e0, e1, -⟩ := idx0 ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [e1]; omega

/-- THE ARRAY after the first region: the down stage of the arrays the region found. -/
theorem final0 (c : Dev nD) : (dat0 V c).arrAt 5 cfg0.N = A0 V c :=
  (dat0 V c).arrAt_eq_of_cover 5 (A0 V c) (fun t _ => flushed0 V c t) cover0

end Cert.KernelIdeal.Regions

end
-- ==== Proof.Region1.lean ====
/-
  THE SECOND REGION'S ARRAY AFTER ITS RUN: the first propagation of the arrays the region finds.

  The grid has 50 points; point t loads rows 200·t … 200·t + 199 of H, the whole of a and of the two small operands, and
  writes rows 200·t … of the result.  What point t writes back is, by the body's payload, the first propagation of its block
  of rows of H, hence — the stage being row-local in H — rows 200·t … of the propagation of the whole of H.  The fifty
  blocks tile the 10000 rows, so after the run the result array IS the first propagation of the whole arrays.
  Stated for any contents `V` the region may find its arrays at.
-/
import proofs.«169441_g13365938225258_cont_week2b_87_4_alg».proof.Proof.Gen.KernelIdeal.Frame
import proofs.«169441_g13365938225258_cont_week2b_87_4_alg».proof.Proof.Payload
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.Adapter
open Cert.KernelIdeal.RegionValue (off2_zero)

variable (V : (c : Dev nD) → (b : Ref sig .tc) → Buf (Elt Ideal) ((c : Thread nD τ).loc b))

/-- The printed index maps of the second region, decided over its grid: the row-blocked windows are at block (t, 0), the
    whole windows at block (0, 0). -/
theorem idx1 : ∀ t : Fin cfg1.N, win1_0.index t (0 : Fin 2) = t.val ∧ win1_0.index t (1 : Fin 2) = 0
    ∧ win1_4.index t (0 : Fin 2) = t.val ∧ win1_4.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem blk1_1 (c : Dev nD) (t : Fin cfg1.N) : (iblk1 V c 1 t : S10000x64.Idx → EReal) = V c main_v8 := by
  have e := idx1 t
  funext u
  unfold iblk1
  rw [View.read_apply]
  show V c main_v8 (((cfg1.win 1).blk t).view.emb u) = V c main_v8 u
  refine congrArg (V c main_v8) ?_
  funext a; apply Fin.ext
  match a with
  | ⟨0, _⟩ => show win1_1.index t (0 : Fin 2) * 10000 + 1 * (u 0).val = (u 0).val; omega
  | ⟨1, _⟩ => show win1_1.index t (1 : Fin 2) * 64 + 1 * (u 1).val = (u 1).val; omega

theorem blk1_2 (c : Dev nD) (t : Fin cfg1.N) : (iblk1 V c 2 t : S64x64.Idx → EReal) = V c main_arg6 := by
  have e := idx1 t
  funext u
  unfold iblk1
  rw [View.read_apply]
  show V c main_arg6 (((cfg1.win 2).blk t).view.emb u) = V c main_arg6 u
  refine congrArg (V c main_arg6) ?_
  funext a; apply Fin.ext
  match a with
  | ⟨0, _⟩ => show win1_2.index t (0 : Fin 2) * 64 + 1 * (u 0).val = (u 0).val; omega
  | ⟨1, _⟩ => show win1_2.index t (1 : Fin 2) * 64 + 1 * (u 1).val = (u 1).val; omega

theorem blk1_3 (c : Dev nD) (t : Fin cfg1.N) : (iblk1 V c 3 t : S1x64.Idx → EReal) = V c main_v5 := by
  have e := idx1 t
  funext u
  unfold iblk1
  rw [View.read_apply]
  show V c main_v5 (((cfg1.win 3).blk t).view.emb u) = V c main_v5 u
  refine congrArg (V c main_v5) ?_
  funext a; apply Fin.ext
  match a with
  | ⟨0, _⟩ => show win1_3.index t (0 : Fin 2) * 1 + 1 * (u 0).val = (u 0).val; omega
  | ⟨1, _⟩ => show win1_3.index t (1 : Fin 2) * 64 + 1 * (u 1).val = (u 1).val; omega

/-- The block of H at point t is rows 200·t … of H. -/
theorem blk1_0 (c : Dev nD) (t : Fin cfg1.N) (u : S200x10000.Idx) (z : S10000x10000.Idx)
    (h0 : (z 0).val = t.val * 200 + (u 0).val) (h1 : (z 1).val = (u 1).val) :
    (iblk1 V c 0 t : S200x10000.Idx → EReal) u = (V c main_arg1 : S10000x10000.Idx → EReal) z := by
  have e := idx1 t
  unfold iblk1
  rw [View.read_apply]
  show V c main_arg1 (((cfg1.win 0).blk t).view.emb u) = V c main_arg1 z
  refine congrArg (V c main_arg1) ?_
  funext a; apply Fin.ext
  match a with
  | ⟨0, _⟩ => show win1_0.index t (0 : Fin 2) * 200 + 1 * (u 0).val = (z 0).val; omega
  | ⟨1, _⟩ => show win1_0.index t (1 : Fin 2) * 10000 + 1 * (u 1).val = (z 1).val; omega

/-- What the second region's array ends holding: the first propagation of the arrays as the region finds them. -/
abbrev A1 (c : Dev nD) : S10000x64.Idx → EReal :=
  prop1 (R := 10000) (V c main_arg1) (V c main_v8) (V c main_arg6) (V c main_v5)

/-- WHAT POINT t WRITES BACK is block t of the first propagation of the whole arrays. -/
theorem flushed1 (c : Dev nD) (t : Fin cfg1.N) :
    (dat1 V c).flushed 4 t = ((cfg1.win 4).blk t).view.read (Elt Ideal) (A1 V c) := by
  show (cfg1.win 4).cut (grid1.coords t) ((dat1 V c).after 4 t) = _
  rw [after1_4]
  unfold out1_4
  rw [View.canon_unit_zero off2_zero]
  simp only [View.ld_unit_zero (S := S200x10000) off2_zero, View.ld_unit_zero (S := S10000x64) off2_zero,
    View.ld_unit_zero (S := S64x64) off2_zero, View.ld_unit_zero (S := S1x64) off2_zero]
  refine (pay1 (iblk1 V c 0 t) (iblk1 V c 1 t) (iblk1 V c 2 t) (iblk1 V c 3 t)).trans ?_
  rw [blk1_1 V c t, blk1_2 V c t, blk1_3 V c t]
  have e := idx1 t
  funext y
  rw [View.read_apply]
  refine prop1_block (iblk1 V c 0 t) (V c main_arg1) (V c main_v8) (V c main_arg6) (V c main_v5) (t.val * 200)
    y (((cfg1.win 4).blk t).view.emb y) ?_ ?_ (blk1_0 V c t)
  · show win1_4.index t (0 : Fin 2) * 200 + 1 * (y 0).val = t.val * 200 + (y 0).val; omega
  · show win1_4.index t (1 : Fin 2) * 64 + 1 * (y 1).val = (y 1).val; omega

/-- An index of the result array is in point t's block iff each coordinate is in the block's range. -/
theorem mem_blk1 (t : Fin cfg1.N) (i : S10000x64.Idx) :
    i ∈ ((cfg1.win 4).blk t).view.set ↔ ∀ a : Fin 2, win1_4.index t a * S200x64.size a ≤ (i a).val ∧ (i a).val < win1_4.index t a * S200x64.size a + S200x64.size a := by
  show i ∈ ((View.whole main_v9).slice (win1_4.rect t)).set ↔ _
  rw [View.set_slice_whole, Rect.mem_set_unit]
  exact Iff.rfl

/-- Row r of the result is in the block of point r / 200. -/
theorem cover1 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 50 := N_1
  refine ⟨⟨(i 0).val / 200, by rw [hN]; omega⟩, flush1_4 _, ?_⟩
  rw [mem_blk1]
  have e := idx1 ⟨(i 0).val / 200, by rw [hN]; omega⟩
  intro a
  match a with
  | ⟨0, _⟩ =>
    show win1_4.index _ (0 : Fin 2) * 200 ≤ (i 0).val ∧ (i 0).val < win1_4.index _ (0 : Fin 2) * 200 + 200
    rw [e.2.2.1]; show (i 0).val / 200 * 200 ≤ (i 0).val ∧ (i 0).val < (i 0).val / 200 * 200 + 200; omega
  | ⟨1, _⟩ =>
    show win1_4.index _ (1 : Fin 2) * 64 ≤ (i 1).val ∧ (i 1).val < win1_4.index _ (1 : Fin 2) * 64 + 64
    rw [e.2.2.2.1]; omega

/-- THE ARRAY after the second region: the stage of the arrays the region found. -/
theorem final1 (c : Dev nD) : (dat1 V c).arrAt 4 cfg1.N = A1 V c :=
  (dat1 V c).arrAt_eq_of_cover 4 (A1 V c) (fun t _ => flushed1 V c t) cover1

end Cert.KernelIdeal.Regions

end
-- ==== Proof.Region2.lean ====
/-
  THE THIRD REGION'S ARRAY AFTER ITS RUN: the second propagation of the arrays the region finds.

  The grid has 50 points; point t loads rows 200·t … 200·t + 199 of H and of x, the whole of b and of the four small
  operands, and writes rows 200·t … of the result.  What point t writes back is, by the body's payload, the second
  propagation (with the up projection, the residual and the head) of its blocks of rows, hence — the stage being
  row-local in H and in x — rows 200·t … of that stage of the whole arrays.  The fifty blocks tile the 10000 rows, so after
  the run the result array IS the stage of the whole arrays.  Stated for any contents `V` the region may find its arrays at.
-/
import proofs.«169441_g13365938225258_cont_week2b_87_4_alg».proof.Proof.Gen.KernelIdeal.Frame
import proofs.«169441_g13365938225258_cont_week2b_87_4_alg».proof.Proof.Payload
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.Adapter
open Cert.KernelIdeal.RegionValue (off2_zero)

variable (V : (c : Dev nD) → (b : Ref sig .tc) → Buf (Elt Ideal) ((c : Thread nD τ).loc b))

/-- The printed index maps of the third region, decided over its grid: the row-blocked windows are at block (t, 0), the
    whole windows at block (0, 0). -/
theorem idx2 : ∀ t : Fin cfg2.N, win2_0.index t (0 : Fin 2) = t.val ∧ win2_0.index t (1 : Fin 2) = 0
    ∧ win2_2.index t (0 : Fin 2) = t.val ∧ win2_2.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem blk2_1 (c : Dev nD) (t : Fin cfg2.N) : (iblk2 V c 1 t : S10000x64.Idx → EReal) = V c main_v9 := by
  have e := idx2 t
  funext u
  unfold iblk2
  rw [View.read_apply]
  show V c main_v9 (((cfg2.win 1).blk t).view.emb u) = V c main_v9 u
  refine congrArg (V c main_v9) ?_
  funext a; apply Fin.ext
  match a with
  | ⟨0, _⟩ => show win2_1.index t (0 : Fin 2) * 10000 + 1 * (u 0).val = (u 0).val; omega
  | ⟨1, _⟩ => show win2_1.index t (1 : Fin 2) * 64 + 1 * (u 1).val = (u 1).val; omega

theorem blk2_3 (c : Dev nD) (t : Fin cfg2.N) : (iblk2 V c 3 t : S64x128.Idx → EReal) = V c main_v1 := by
  have e := idx2 t
  funext u
  unfold iblk2
  rw [View.read_apply]
  show V c main_v1 (((cfg2.win 3).blk t).view.emb u) = V c main_v1 u
  refine congrArg (V c main_v1) ?_
  funext a; apply Fin.ext
  match a with
  | ⟨0, _⟩ => show win2_3.index t (0 : Fin 2) * 64 + 1 * (u 0).val = (u 0).val; omega
  | ⟨1, _⟩ => show win2_3.index t (1 : Fin 2) * 128 + 1 * (u 1).val = (u 1).val; omega

theorem blk2_4 (c : Dev nD) (t : Fin cfg2.N) : (iblk2 V c 4 t : S1x128.Idx → EReal) = V c main_v6 := by
  have e := idx2 t
  funext u
  unfold iblk2
  rw [View.read_apply]
  show V c main_v6 (((cfg2.win 4).blk t).view.emb u) = V c main_v6 u
  refine congrArg (V c main_v6) ?_
  funext a; apply Fin.ext
  match a with
  | ⟨0, _⟩ => show win2_4.index t (0 : Fin 2) * 1 + 1 * (u 0).val = (u 0).val; omega
  | ⟨1, _⟩ => show win2_4.index t (1 : Fin 2) * 128 + 1 * (u 1).val = (u 1).val; omega

theorem blk2_5 (c : Dev nD) (t : Fin cfg2.N) : (iblk2 V c 5 t : S128x40.Idx → EReal) = V c main_v2 := by
  have e := idx2 t
  funext u
  unfold iblk2
  rw [View.read_apply]
  show V c main_v2 (((cfg2.win 5).blk t).view.emb u) = V c main_v2 u
  refine congrArg (V c main_v2) ?_
  funext a; apply Fin.ext
  match a with
  | ⟨0, _⟩ => show win2_5.index t (0 : Fin 2) * 128 + 1 * (u 0).val = (u 0).val; omega
  | ⟨1, _⟩ => show win2_5.index t (1 : Fin 2) * 40 + 1 * (u 1).val = (u 1).val; omega

theorem blk2_6 (c : Dev nD) (t : Fin cfg2.N) : (iblk2 V c 6 t : S1x40.Idx → EReal) = V c main_v7 := by
  have e := idx2 t
  funext u
  unfold iblk2
  rw [View.read_apply]
  show V c main_v7 (((cfg2.win 6).blk t).view.emb u) = V c main_v7 u
  refine congrArg (V c main_v7) ?_
  funext a; apply Fin.ext
  match a with
  | ⟨0, _⟩ => show win2_6.index t (0 : Fin 2) * 1 + 1 * (u 0).val = (u 0).val; omega
  | ⟨1, _⟩ => show win2_6.index t (1 : Fin 2) * 40 + 1 * (u 1).val = (u 1).val; omega

/-- The block of H at point t is rows 200·t … of H. -/
theorem blk2_0 (c : Dev nD) (t : Fin cfg2.N) (u : S200x10000.Idx) (z : S10000x10000.Idx)
    (h0 : (z 0).val = t.val * 200 + (u 0).val) (h1 : (z 1).val = (u 1).val) :
    (iblk2 V c 0 t : S200x10000.Idx → EReal) u = (V c main_arg1 : S10000x10000.Idx → EReal) z := by
  have e := idx2 t
  unfold iblk2
  rw [View.read_apply]
  show V c main_arg1 (((cfg2.win 0).blk t).view.emb u) = V c main_arg1 z
  refine congrArg (V c main_arg1) ?_
  funext a; apply Fin.ext
  match a with
  | ⟨0, _⟩ => show win2_0.index t (0 : Fin 2) * 200 + 1 * (u 0).val = (z 0).val; omega
  | ⟨1, _⟩ => show win2_0.index t (1 : Fin 2) * 10000 + 1 * (u 1).val = (z 1).val; omega

/-- The block of x at point t is rows 200·t … of x. -/
theorem blk2_2 (c : Dev nD) (t : Fin cfg2.N) (u : S200x128.Idx) (z : S10000x128.Idx)
    (h0 : (z 0).val = t.val * 200 + (u 0).val) (h1 : (z 1).val = (u 1).val) :
    (iblk2 V c 2 t : S200x128.Idx → EReal) u = (V c main_arg0 : S10000x128.Idx → EReal) z := by
  have e := idx2 t
  unfold iblk2
  rw [View.read_apply]
  show V c main_arg0 (((cfg2.win 2).blk t).view.emb u) = V c main_arg0 z
  refine congrArg (V c main_arg0) ?_
  funext a; apply Fin.ext
  match a with
  | ⟨0, _⟩ => show win2_2.index t (0 : Fin 2) * 200 + 1 * (u 0).val = (z 0).val; omega
  | ⟨1, _⟩ => show win2_2.index t (1 : Fin 2) * 128 + 1 * (u 1).val = (z 1).val; omega

/-- What the third region's array ends holding: the second propagation of the arrays as the region finds them. -/
abbrev A2 (c : Dev nD) : S10000x40.Idx → EReal :=
  prop2 (R := 10000) (V c main_arg1) (V c main_v9) (V c main_arg0) (V c main_v1) (V c main_v6) (V c main_v2) (V c main_v7)

/-- WHAT POINT t WRITES BACK is block t of the second propagation of the whole arrays. -/
theorem flushed2 (c : Dev nD) (t : Fin cfg2.N) :
    (dat2 V c).flushed 7 t = ((cfg2.win 7).blk t).view.read (Elt Ideal) (A2 V c) := by
  show (cfg2.win 7).cut (grid2.coords t) ((dat2 V c).after 7 t) = _
  rw [after2_7]
  unfold out2_7
  rw [View.canon_unit_zero off2_zero]
  simp only [View.ld_unit_zero (S := S200x10000) off2_zero, View.ld_unit_zero (S := S10000x64) off2_zero,
    View.ld_unit_zero (S := S200x128) off2_zero, View.ld_unit_zero (S := S64x128) off2_zero,
    View.ld_unit_zero (S := S1x128) off2_zero, View.ld_unit_zero (S := S128x40) off2_zero,
    View.ld_unit_zero (S := S1x40) off2_zero]
  refine (pay2 (iblk2 V c 0 t) (iblk2 V c 1 t) (iblk2 V c 2 t) (iblk2 V c 3 t) (iblk2 V c 4 t) (iblk2 V c 5 t) (iblk2 V c 6 t)).trans ?_
  rw [blk2_1 V c t, blk2_3 V c t, blk2_4 V c t, blk2_5 V c t, blk2_6 V c t]
  have e := idx2 t
  funext y
  rw [View.read_apply]
  refine prop2_block (iblk2 V c 0 t) (V c main_arg1) (V c main_v9) (iblk2 V c 2 t) (V c main_arg0) (V c main_v1) (V c main_v6)
    (V c main_v2) (V c main_v7) (t.val * 200) y (((cfg2.win 7).blk t).view.emb y) ?_ ?_ (blk2_0 V c t) (blk2_2 V c t)
  · show win2_7.index t (0 : Fin 2) * 200 + 1 * (y 0).val = t.val * 200 + (y 0).val; omega
  · show win2_7.index t (1 : Fin 2) * 40 + 1 * (y 1).val = (y 1).val; omega

/-- An index of the result array is in point t's block iff each coordinate is in the block's range. -/
theorem mem_blk2 (t : Fin cfg2.N) (i : S10000x40.Idx) :
    i ∈ ((cfg2.win 7).blk t).view.set ↔ ∀ a : Fin 2, win2_7.index t a * S200x40.size a ≤ (i a).val ∧ (i a).val < win2_7.index t a * S200x40.size a + S200x40.size a := by
  show i ∈ ((View.whole main_v10).slice (win2_7.rect t)).set ↔ _
  rw [View.set_slice_whole, Rect.mem_set_unit]
  exact Iff.rfl

/-- Row r of the result is in the block of point r / 200. -/
theorem cover2 (i : S10000x40.Idx) : ∃ t : Fin cfg2.N, (cfg2.win 7).flush t = true ∧ i ∈ ((cfg2.win 7).blk t).view.set := by
  have hi0 : (i 0).val < 10000 := (i 0).isLt
  have hi1 : (i 1).val < 40 := (i 1).isLt
  have hN : cfg2.N = 50 := N_2
  refine ⟨⟨(i 0).val / 200, by rw [hN]; omega⟩, flush2_7 _, ?_⟩
  rw [mem_blk2]
  have e := idx2 ⟨(i 0).val / 200, by rw [hN]; omega⟩
  intro a
  match a with
  | ⟨0, _⟩ =>
    show win2_7.index _ (0 : Fin 2) * 200 ≤ (i 0).val ∧ (i 0).val < win2_7.index _ (0 : Fin 2) * 200 + 200
    rw [e.2.2.2.2.1]; show (i 0).val / 200 * 200 ≤ (i 0).val ∧ (i 0).val < (i 0).val / 200 * 200 + 200; omega
  | ⟨1, _⟩ =>
    show win2_7.index _ (1 : Fin 2) * 40 ≤ (i 1).val ∧ (i 1).val < win2_7.index _ (1 : Fin 2) * 40 + 40
    rw [e.2.2.2.2.2.1]; omega

/-- THE ARRAY after the third region: the stage of the arrays the region found. -/
theorem final2 (c : Dev nD) : (dat2 V c).arrAt 7 cfg2.N = A2 V c :=
  (dat2 V c).arrAt_eq_of_cover 7 (A2 V c) (fun t _ => flushed2 V c t) cover2

end Cert.KernelIdeal.Regions

end
-- ==== Proof.Chain.lean ====
/-
  THE RESULT BUFFER AFTER THE THREE REGIONS IS THE NETWORK OF THE LAUNCH ARRAYS.

  The buffers' contents at the four boundaries of @main: after the host operations every argument is as launched and the
  eight host values are the transposed weights and the biases reshaped to one row; each region then replaces its result
  array by its stage of the arrays it found (Region0, Region1, Region2) and leaves every other buffer as it was.  Reading
  each region's operands back through the boundaries — an argument to the launch memory, a host value to its operation,
  the first and second results to the stage that wrote them — the result buffer at the last boundary is `net` of the
  launch arrays.
-/
import proofs.«169441_g13365938225258_cont_week2b_87_4_alg».proof.Proof.Region0
import proofs.«169441_g13365938225258_cont_week2b_87_4_alg».proof.Proof.Region1
import proofs.«169441_g13365938225258_cont_week2b_87_4_alg».proof.Proof.Region2
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Regions Cert.Adapter

variable (m : (ℓ : Loc nD τ sig) → Buf (Elt Ideal) ℓ) (ρ : Dev nD → PrngReg)

/-! ## After the host operations -/

theorem V1_v0 (c : Dev nD) : (V1 m ρ c main_v0 : S128x64.Idx → EReal) = transpose S128x64 [1, 0] (m ((c : Thread nD τ).loc main_arg2)) transposes_S64x128_S128x64_1_0 := by
  dsimp only [V1, W1, hostOps0]; after_results <;> rfl
theorem V1_v1 (c : Dev nD) : (V1 m ρ c main_v1 : S64x128.Idx → EReal) = transpose S64x128 [1, 0] (m ((c : Thread nD τ).loc main_arg8)) transposes_S128x64_S64x128_1_0 := by
  dsimp only [V1, W1, hostOps0]; after_results <;> rfl
theorem V1_v2 (c : Dev nD) : (V1 m ρ c main_v2 : S128x40.Idx → EReal) = transpose S128x40 [1, 0] (m ((c : Thread nD τ).loc main_arg10)) transposes_S40x128_S128x40_1_0 := by
  dsimp only [V1, W1, hostOps0]; after_results <;> rfl
theorem V1_v3 (c : Dev nD) : (V1 m ρ c main_v3 : S1x64.Idx → EReal) = shapeCast S1x64 (m ((c : Thread nD τ).loc main_arg3)) shapeCasts_S64_S1x64 := by
  dsimp only [V1, W1, hostOps0]; after_results <;> rfl
theorem V1_v4 (c : Dev nD) : (V1 m ρ c main_v4 : S1x64.Idx → EReal) = shapeCast S1x64 (m ((c : Thread nD τ).loc main_arg5)) shapeCasts_S64_S1x64 := by
  dsimp only [V1, W1, hostOps0]; after_results <;> rfl
theorem V1_v5 (c : Dev nD) : (V1 m ρ c main_v5 : S1x64.Idx → EReal) = shapeCast S1x64 (m ((c : Thread nD τ).loc main_arg7)) shapeCasts_S64_S1x64 := by
  dsimp only [V1, W1, hostOps0]; after_results <;> rfl
theorem V1_v6 (c : Dev nD) : (V1 m ρ c main_v6 : S1x128.Idx → EReal) = shapeCast S1x128 (m ((c : Thread nD τ).loc main_arg9)) shapeCasts_S128_S1x128 := by
  dsimp only [V1, W1, hostOps0]; after_results <;> rfl
theorem V1_v7 (c : Dev nD) : (V1 m ρ c main_v7 : S1x40.Idx → EReal) = shapeCast S1x40 (m ((c : Thread nD τ).loc main_arg11)) shapeCasts_S40_S1x40 := by
  dsimp only [V1, W1, hostOps0]; after_results <;> rfl
theorem V1_arg0 (c : Dev nD) : (V1 m ρ c main_arg0 : S10000x128.Idx → EReal) = m ((c : Thread nD τ).loc main_arg0) := by
  dsimp only [V1, W1, hostOps0]; after_results <;> rfl
theorem V1_arg1 (c : Dev nD) : (V1 m ρ c main_arg1 : S10000x10000.Idx → EReal) = m ((c : Thread nD τ).loc main_arg1) := by
  dsimp only [V1, W1, hostOps0]; after_results <;> rfl
theorem V1_arg4 (c : Dev nD) : (V1 m ρ c main_arg4 : S64x64.Idx → EReal) = m ((c : Thread nD τ).loc main_arg4) := by
  dsimp only [V1, W1, hostOps0]; after_results <;> rfl
theorem V1_arg6 (c : Dev nD) : (V1 m ρ c main_arg6 : S64x64.Idx → EReal) = m ((c : Thread nD τ).loc main_arg6) := by
  dsimp only [V1, W1, hostOps0]; after_results <;> rfl

/-! ## After the first region -/

/-- The first result: the down stage of the launch arrays. -/
theorem V2_v8 (c : Dev nD) : (V2 m ρ c main_v8 : S10000x64.Idx → EReal)
    = down (m ((c : Thread nD τ).loc main_arg0)) (transpose S128x64 [1, 0] (m ((c : Thread nD τ).loc main_arg2)) transposes_S64x128_S128x64_1_0) (shapeCast S1x64 (m ((c : Thread nD τ).loc main_arg3)) shapeCasts_S64_S1x64) (m ((c : Thread nD τ).loc main_arg4)) (shapeCast S1x64 (m ((c : Thread nD τ).loc main_arg5)) shapeCasts_S64_S1x64) := by
  refine ((W2_arr m ρ c 5).trans (final0 (V1 m ρ) c)).trans ?_
  show down (V1 m ρ c main_arg0) (V1 m ρ c main_v0) (V1 m ρ c main_v3) (V1 m ρ c main_arg4) (V1 m ρ c main_v4) = _
  rw [V1_arg0 m ρ c, V1_v0 m ρ c, V1_v3 m ρ c, V1_arg4 m ρ c, V1_v4 m ρ c]

theorem V2_arg0 (c : Dev nD) : (V2 m ρ c main_arg0 : S10000x128.Idx → EReal) = m ((c : Thread nD τ).loc main_arg0) :=
  ((W2_arr m ρ c 0).trans (((dat0 (V1 m ρ) c).arrAt_in 0 rfl _).trans (A_eq0 (V1 m ρ) c 0))).trans (V1_arg0 m ρ c)
theorem V2_arg1 (c : Dev nD) : (V2 m ρ c main_arg1 : S10000x10000.Idx → EReal) = m ((c : Thread nD τ).loc main_arg1) :=
  (W2_of_ne m ρ c main_arg1 (by decide)).trans (V1_arg1 m ρ c)
theorem V2_arg6 (c : Dev nD) : (V2 m ρ c main_arg6 : S64x64.Idx → EReal) = m ((c : Thread nD τ).loc main_arg6) :=
  (W2_of_ne m ρ c main_arg6 (by decide)).trans (V1_arg6 m ρ c)
theorem V2_v5 (c : Dev nD) : (V2 m ρ c main_v5 : S1x64.Idx → EReal) = shapeCast S1x64 (m ((c : Thread nD τ).loc main_arg7)) shapeCasts_S64_S1x64 :=
  (W2_of_ne m ρ c main_v5 (by decide)).trans (V1_v5 m ρ c)
theorem V2_v1 (c : Dev nD) : (V2 m ρ c main_v1 : S64x128.Idx → EReal) = transpose S64x128 [1, 0] (m ((c : Thread nD τ).loc main_arg8)) transposes_S128x64_S64x128_1_0 :=
  (W2_of_ne m ρ c main_v1 (by decide)).trans (V1_v1 m ρ c)
theorem V2_v6 (c : Dev nD) : (V2 m ρ c main_v6 : S1x128.Idx → EReal) = shapeCast S1x128 (m ((c : Thread nD τ).loc main_arg9)) shapeCasts_S128_S1x128 :=
  (W2_of_ne m ρ c main_v6 (by decide)).trans (V1_v6 m ρ c)
theorem V2_v2 (c : Dev nD) : (V2 m ρ c main_v2 : S128x40.Idx → EReal) = transpose S128x40 [1, 0] (m ((c : Thread nD τ).loc main_arg10)) transposes_S40x128_S128x40_1_0 :=
  (W2_of_ne m ρ c main_v2 (by decide)).trans (V1_v2 m ρ c)
theorem V2_v7 (c : Dev nD) : (V2 m ρ c main_v7 : S1x40.Idx → EReal) = shapeCast S1x40 (m ((c : Thread nD τ).loc main_arg11)) shapeCasts_S40_S1x40 :=
  (W2_of_ne m ρ c main_v7 (by decide)).trans (V1_v7 m ρ c)

/-! ## After the second region -/

/-- The second result: the first propagation of H and the first result. -/
theorem V3_v9 (c : Dev nD) : (V3 m ρ c main_v9 : S10000x64.Idx → EReal)
    = prop1 (m ((c : Thread nD τ).loc main_arg1)) (down (m ((c : Thread nD τ).loc main_arg0)) (transpose S128x64 [1, 0] (m ((c : Thread nD τ).loc main_arg2)) transposes_S64x128_S128x64_1_0) (shapeCast S1x64 (m ((c : Thread nD τ).loc main_arg3)) shapeCasts_S64_S1x64) (m ((c : Thread nD τ).loc main_arg4)) (shapeCast S1x64 (m ((c : Thread nD τ).loc main_arg5)) shapeCasts_S64_S1x64)) (m ((c : Thread nD τ).loc main_arg6)) (shapeCast S1x64 (m ((c : Thread nD τ).loc main_arg7)) shapeCasts_S64_S1x64) := by
  refine ((W3_arr m ρ c 4).trans (final1 (V2 m ρ) c)).trans ?_
  show prop1 (V2 m ρ c main_arg1) (V2 m ρ c main_v8) (V2 m ρ c main_arg6) (V2 m ρ c main_v5) = _
  rw [V2_arg1 m ρ c, V2_v8 m ρ c, V2_arg6 m ρ c, V2_v5 m ρ c]

theorem V3_arg1 (c : Dev nD) : (V3 m ρ c main_arg1 : S10000x10000.Idx → EReal) = m ((c : Thread nD τ).loc main_arg1) :=
  ((W3_arr m ρ c 0).trans (((dat1 (V2 m ρ) c).arrAt_in 0 rfl _).trans (A_eq1 (V2 m ρ) c 0))).trans (V2_arg1 m ρ c)
theorem V3_arg0 (c : Dev nD) : (V3 m ρ c main_arg0 : S10000x128.Idx → EReal) = m ((c : Thread nD τ).loc main_arg0) :=
  (W3_of_ne m ρ c main_arg0 (by decide)).trans (V2_arg0 m ρ c)
theorem V3_v1 (c : Dev nD) : (V3 m ρ c main_v1 : S64x128.Idx → EReal) = transpose S64x128 [1, 0] (m ((c : Thread nD τ).loc main_arg8)) transposes_S128x64_S64x128_1_0 :=
  (W3_of_ne m ρ c main_v1 (by decide)).trans (V2_v1 m ρ c)
theorem V3_v6 (c : Dev nD) : (V3 m ρ c main_v6 : S1x128.Idx → EReal) = shapeCast S1x128 (m ((c : Thread nD τ).loc main_arg9)) shapeCasts_S128_S1x128 :=
  (W3_of_ne m ρ c main_v6 (by decide)).trans (V2_v6 m ρ c)
theorem V3_v2 (c : Dev nD) : (V3 m ρ c main_v2 : S128x40.Idx → EReal) = transpose S128x40 [1, 0] (m ((c : Thread nD τ).loc main_arg10)) transposes_S40x128_S128x40_1_0 :=
  (W3_of_ne m ρ c main_v2 (by decide)).trans (V2_v2 m ρ c)
theorem V3_v7 (c : Dev nD) : (V3 m ρ c main_v7 : S1x40.Idx → EReal) = shapeCast S1x40 (m ((c : Thread nD τ).loc main_arg11)) shapeCasts_S40_S1x40 :=
  (W3_of_ne m ρ c main_v7 (by decide)).trans (V2_v7 m ρ c)

/-! ## After the third region -/

/-- The network of the launch arrays: what both programs end holding. -/
abbrev result (c : Dev nD) : S10000x40.Idx → EReal :=
  net (m ((c : Thread nD τ).loc main_arg0)) (m ((c : Thread nD τ).loc main_arg1)) (transpose S128x64 [1, 0] (m ((c : Thread nD τ).loc main_arg2)) transposes_S64x128_S128x64_1_0) (shapeCast S1x64 (m ((c : Thread nD τ).loc main_arg3)) shapeCasts_S64_S1x64) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64) (transpose S64x128 [1, 0] (m ((c : Thread nD τ).loc main_arg8)) transposes_S128x64_S64x128_1_0) (shapeCast S1x128 (m ((c : Thread nD τ).loc main_arg9)) shapeCasts_S128_S1x128) (transpose S128x40 [1, 0] (m ((c : Thread nD τ).loc main_arg10)) transposes_S40x128_S128x40_1_0) (shapeCast S1x40 (m ((c : Thread nD τ).loc main_arg11)) shapeCasts_S40_S1x40)

/-- THE RESULT at the last boundary: the network of the launch arrays. -/
theorem result_eq (c : Dev nD) : (W4 m ρ c (Proc.devRef .tc main_v10) : S10000x40.Idx → EReal) = result m c := by
  refine ((W4_arr m ρ c 7).trans (final2 (V3 m ρ) c)).trans ?_
  show prop2 (V3 m ρ c main_arg1) (V3 m ρ c main_v9) (V3 m ρ c main_arg0) (V3 m ρ c main_v1) (V3 m ρ c main_v6)
    (V3 m ρ c main_v2) (V3 m ρ c main_v7) = _
  rw [V3_arg1 m ρ c, V3_v9 m ρ c, V3_arg0 m ρ c, V3_v1 m ρ c, V3_v6 m ρ c, V3_v2 m ρ c, V3_v7 m ρ c]
  rfl

end Cert.KernelIdeal.Chain

end
-- ==== Proof.Ref.lean ====
/-
  THE REFERENCE'S RESULT IS THE NETWORK OF THE WHOLE ARRAYS.

  The reference computes, on the whole 10000-row arrays and in this order: the down projection and the first layer's
  weights (two host dense layers: a `dot_general` plus a bias broadcast to one row and then over the rows), the product by
  H, the rectifier (the larger of the array and the zero constant), a dense layer, the product by H again, the up
  projection (a dense layer), the residual sum with x, and the head (a dense layer).  Each of these is, as a whole array,
  the corresponding operation of the specification (LibPlainDot `hlayer`, LibProdRows `hprod`, LibRowBias `hact`), so the
  reference's term is `net` of its arguments, the transposed weights being the same host transposes and a bias read
  back from its one-row reshape being the bias.  No sum is regrouped.
-/
import proofs.«169441_g13365938225258_cont_week2b_87_4_alg».proof.Proof.Gen.ReferenceIdeal.Run
import proofs.«169441_g13365938225258_cont_week2b_87_4_alg».proof.Proof.Spec

set_option maxRecDepth 16384

noncomputable section

namespace Cert.ReferenceIdeal.RefValue

open Idealize.ShloMosaic Idealize.ShloMosaic.ValueIdx Cert.ReferenceIdeal Cert.ReferenceIdeal.Gen
open Cert.DenseRow Cert.RowBias Cert.PlainDot Cert.ProdRows Cert.Adapter
open Cert.KernelIdeal.RegionValue (prodArr)

/-- The reference's composed term is the network of its twelve arguments. -/
theorem result_eq (a0 : FVec Ideal S10000x128 .f32) (a1 : FVec Ideal S10000x10000 .f32) (a2 : FVec Ideal S64x128 .f32)
    (a3 : FVec Ideal S64 .f32) (a4 : FVec Ideal S64x64 .f32) (a5 : FVec Ideal S64 .f32) (a6 : FVec Ideal S64x64 .f32)
    (a7 : FVec Ideal S64 .f32) (a8 : FVec Ideal S128x64 .f32) (a9 : FVec Ideal S128 .f32) (a10 : FVec Ideal S40x128 .f32)
    (a11 : FVec Ideal S40 .f32)
    (h3 : S64.ShapeCasts S1x64) (h5 : S64.ShapeCasts S1x64) (h7 : S64.ShapeCasts S1x64) (h9 : S128.ShapeCasts S1x128)
    (h11 : S40.ShapeCasts S1x40) :
    addf (Host.dotGeneral dot_S10000x128_S128x40_S10000x40_1_0_0_1_n_n none (addf a0 (addf (Host.dotGeneral dot_S10000x64_S64x128_S10000x128_1_0_0_1_n_n none (Host.dotGeneral dot_S10000x10000_S10000x64_S10000x64_1_0_0_1_n_n none a1 (addf (Host.dotGeneral dot_S10000x64_S64x64_S10000x64_1_0_0_1_n_n none (maximumf (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))) (broadcastInDim S10000x64 ![] bcast_S_S10000x64 (constant S_ .f32 0x00000000#32))) a6) (broadcastInDim S10000x64 ![0, 1] bcast_S1x64_S10000x64_0_1 (broadcastInDim S1x64 ![1] bcast_S64_S1x64_1 a7)))) (transpose S64x128 [1, 0] a8 transposes_S128x64_S64x128_1_0)) (broadcastInDim S10000x128 ![0, 1] bcast_S1x128_S10000x128_0_1 (broadcastInDim S1x128 ![1] bcast_S128_S1x128_1 a9)))) (transpose S128x40 [1, 0] a10 transposes_S40x128_S128x40_1_0)) (broadcastInDim S10000x40 ![0, 1] bcast_S1x40_S10000x40_0_1 (broadcastInDim S1x40 ![1] bcast_S40_S1x40_1 a11))
      = net a0 a1 (transpose S128x64 [1, 0] a2 transposes_S64x128_S128x64_1_0) (shapeCast S1x64 a3 h3) a4 (shapeCast S1x64 a5 h5) a6 (shapeCast S1x64 a7 h7)
          (transpose S64x128 [1, 0] a8 transposes_S128x64_S64x128_1_0) (shapeCast S1x128 a9 h9) (transpose S128x40 [1, 0] a10 transposes_S40x128_S128x40_1_0) (shapeCast S1x40 a11 h11) := by
  have t1 : (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3)))
      = (layerArr a0 (transpose S128x64 [1, 0] a2 transposes_S64x128_S128x64_1_0) a3) :=
    hlayer 10000 128 64 none a0 _ a3 _ _
  have t2 : (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))
      = (layerArr (layerArr a0 (transpose S128x64 [1, 0] a2 transposes_S64x128_S128x64_1_0) a3) a4 a5) := by
    rw [t1]; exact hlayer 10000 64 64 none _ a4 a5 _ _
  have t3 : (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5))))
      = (prodArr a1 (layerArr (layerArr a0 (transpose S128x64 [1, 0] a2 transposes_S64x128_S128x64_1_0) a3) a4 a5)) := by
    rw [t2]; exact hprod none a1 _
  have t4 : (maximumf (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))) (broadcastInDim S10000x64 ![] bcast_S_S10000x64 (constant S_ .f32 0x00000000#32)))
      = (actArr zf (prodArr a1 (layerArr (layerArr a0 (transpose S128x64 [1, 0] a2 transposes_S64x128_S128x64_1_0) a3) a4 a5))) := by
    rw [t3]; exact hact _ _
  have t5 : (addf (Host.dotGeneral dot_S10000x64_S64x64_S10000x64_1_0_0_1_n_n none (maximumf (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))) (broadcastInDim S10000x64 ![] bcast_S_S10000x64 (constant S_ .f32 0x00000000#32))) a6) (broadcastInDim S10000x64 ![0, 1] bcast_S1x64_S10000x64_0_1 (broadcastInDim S1x64 ![1] bcast_S64_S1x64_1 a7)))
      = (layerArr (actArr zf (prodArr a1 (layerArr (layerArr a0 (transpose S128x64 [1, 0] a2 transposes_S64x128_S128x64_1_0) a3) a4 a5))) a6 a7) := by
    rw [t4]; exact hlayer 10000 64 64 none _ a6 a7 _ _
  have t6 : (Host.dotGeneral dot_S10000x10000_S10000x64_S10000x64_1_0_0_1_n_n none a1 (addf (Host.dotGeneral dot_S10000x64_S64x64_S10000x64_1_0_0_1_n_n none (maximumf (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))) (broadcastInDim S10000x64 ![] bcast_S_S10000x64 (constant S_ .f32 0x00000000#32))) a6) (broadcastInDim S10000x64 ![0, 1] bcast_S1x64_S10000x64_0_1 (broadcastInDim S1x64 ![1] bcast_S64_S1x64_1 a7))))
      = (prodArr a1 (layerArr (actArr zf (prodArr a1 (layerArr (layerArr a0 (transpose S128x64 [1, 0] a2 transposes_S64x128_S128x64_1_0) a3) a4 a5))) a6 a7)) := by
    rw [t5]; exact hprod none a1 _
  have t7 : (addf (Host.dotGeneral dot_S10000x64_S64x128_S10000x128_1_0_0_1_n_n none (Host.dotGeneral dot_S10000x10000_S10000x64_S10000x64_1_0_0_1_n_n none a1 (addf (Host.dotGeneral dot_S10000x64_S64x64_S10000x64_1_0_0_1_n_n none (maximumf (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))) (broadcastInDim S10000x64 ![] bcast_S_S10000x64 (constant S_ .f32 0x00000000#32))) a6) (broadcastInDim S10000x64 ![0, 1] bcast_S1x64_S10000x64_0_1 (broadcastInDim S1x64 ![1] bcast_S64_S1x64_1 a7)))) (transpose S64x128 [1, 0] a8 transposes_S128x64_S64x128_1_0)) (broadcastInDim S10000x128 ![0, 1] bcast_S1x128_S10000x128_0_1 (broadcastInDim S1x128 ![1] bcast_S128_S1x128_1 a9)))
      = (layerArr (prodArr a1 (layerArr (actArr zf (prodArr a1 (layerArr (layerArr a0 (transpose S128x64 [1, 0] a2 transposes_S64x128_S128x64_1_0) a3) a4 a5))) a6 a7)) (transpose S64x128 [1, 0] a8 transposes_S128x64_S64x128_1_0) a9) := by
    rw [t6]; exact hlayer 10000 64 128 none _ _ a9 _ _
  have t8 : (addf a0 (addf (Host.dotGeneral dot_S10000x64_S64x128_S10000x128_1_0_0_1_n_n none (Host.dotGeneral dot_S10000x10000_S10000x64_S10000x64_1_0_0_1_n_n none a1 (addf (Host.dotGeneral dot_S10000x64_S64x64_S10000x64_1_0_0_1_n_n none (maximumf (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))) (broadcastInDim S10000x64 ![] bcast_S_S10000x64 (constant S_ .f32 0x00000000#32))) a6) (broadcastInDim S10000x64 ![0, 1] bcast_S1x64_S10000x64_0_1 (broadcastInDim S1x64 ![1] bcast_S64_S1x64_1 a7)))) (transpose S64x128 [1, 0] a8 transposes_S128x64_S64x128_1_0)) (broadcastInDim S10000x128 ![0, 1] bcast_S1x128_S10000x128_0_1 (broadcastInDim S1x128 ![1] bcast_S128_S1x128_1 a9))))
      = (addArr a0 (layerArr (prodArr a1 (layerArr (actArr zf (prodArr a1 (layerArr (layerArr a0 (transpose S128x64 [1, 0] a2 transposes_S64x128_S128x64_1_0) a3) a4 a5))) a6 a7)) (transpose S64x128 [1, 0] a8 transposes_S128x64_S64x128_1_0) a9)) := by
    rw [t7]; rfl
  have t9 : (addf (Host.dotGeneral dot_S10000x128_S128x40_S10000x40_1_0_0_1_n_n none (addf a0 (addf (Host.dotGeneral dot_S10000x64_S64x128_S10000x128_1_0_0_1_n_n none (Host.dotGeneral dot_S10000x10000_S10000x64_S10000x64_1_0_0_1_n_n none a1 (addf (Host.dotGeneral dot_S10000x64_S64x64_S10000x64_1_0_0_1_n_n none (maximumf (Host.dotGeneral dot_S10000x10000_S10000x64_S10000x64_1_0_0_1_n_n none a1 (addf (Host.dotGeneral dot_S10000x64_S64x64_S10000x64_1_0_0_1_n_n none (addf (Host.dotGeneral dot_S10000x128_S128x64_S10000x64_1_0_0_1_n_n none a0 (transpose S128x64 [1, 0] a2 transposes_S64x128_S128x64_1_0)) (broadcastInDim S10000x64 ![0, 1] bcast_S1x64_S10000x64_0_1 (broadcastInDim S1x64 ![1] bcast_S64_S1x64_1 a3))) a4) (broadcastInDim S10000x64 ![0, 1] bcast_S1x64_S10000x64_0_1 (broadcastInDim S1x64 ![1] bcast_S64_S1x64_1 a5)))) (broadcastInDim S10000x64 ![] bcast_S_S10000x64 (constant S_ .f32 0x00000000#32))) a6) (broadcastInDim S10000x64 ![0, 1] bcast_S1x64_S10000x64_0_1 (broadcastInDim S1x64 ![1] bcast_S64_S1x64_1 a7)))) (transpose S64x128 [1, 0] a8 transposes_S128x64_S64x128_1_0)) (broadcastInDim S10000x128 ![0, 1] bcast_S1x128_S10000x128_0_1 (broadcastInDim S1x128 ![1] bcast_S128_S1x128_1 a9)))) (transpose S128x40 [1, 0] a10 transposes_S40x128_S128x40_1_0)) (broadcastInDim S10000x40 ![0, 1] bcast_S1x40_S10000x40_0_1 (broadcastInDim S1x40 ![1] bcast_S40_S1x40_1 a11)))
      = (layerArr (addArr a0 (layerArr (prodArr a1 (layerArr (actArr zf (prodArr a1 (layerArr (layerArr a0 (transpose S128x64 [1, 0] a2 transposes_S64x128_S128x64_1_0) a3) a4 a5))) a6 a7)) (transpose S64x128 [1, 0] a8 transposes_S128x64_S64x128_1_0) a9)) (transpose S128x40 [1, 0] a10 transposes_S40x128_S128x40_1_0) a11) := by
    rw [t8]; exact hlayer 10000 128 40 none _ _ a11 _ _
  unfold net prop2 prop1 down
  rw [unrow_cast a3 h3, unrow_cast a5 h5, unrow_cast a7 h7, unrow_cast a9 h9, unrow_cast a11 h11]
  exact t9

end Cert.ReferenceIdeal.RefValue

end
-- ==== Proof.lean ====
/-
  An adapter network over a dense propagation matrix, computed by three row-blocked kernels, equals its plain reference
  over the extended reals.

  Both programs compute, from a feature table x [10000, 128], a propagation matrix H [10000, 10000] and five dense
  layers,
      a   = (x · Wdᵀ + bd) · W1 + b1,
      b   = max(H · a, 0) · W2 + b2,
      out = (x + ((H · b) · Wuᵀ + bu)) · Wcᵀ + bc.
  The reference does it on the whole arrays.  The kernel transposes the three weights and reshapes the five biases to
  one row on the host, then runs three regions, each over a grid of blocks of rows: the first computes a from 2000 rows of
  x at a time, the second b from 200 rows of H at a time, the third out from 200 rows of H and of x at a time.  Every
  operation in the chain is row-local in its tall operand — row p of a product, of a dense layer, of a rectifier, of a
  sum depends on row p of the tall operand only — so each region's blocks are the blocks of its stage of the whole arrays
  (Spec, Payload, Region0–2), the blocks tile the rows, and the result buffer after the third region is the network
  `Cert.Adapter.net` of the launch arrays (Chain, over the run with the result named, RunNamed).  The reference's
  composed term is the same function (Ref): its `dot_general`s and the kernel's products into a zero accumulator are the
  same sums in the same order, a change of float format is the identity at the ideal values, and the two spellings of a
  bias broadcast and of the rectifier read the same entries.  No sum is regrouped and nothing is cancelled, so the
  precondition (finite inputs) is not used.

  The three frames are the generated frame certificates (the reference's is its generated run with the result dropped);
  the idealization rewrote no operation, so `preserves` has nothing to state.
-/
import proofs.«169441_g13365938225258_cont_week2b_87_4_alg».proof.Defs
import proofs.«169441_g13365938225258_cont_week2b_87_4_alg».proof.Proof.Gen.Kernel
import proofs.«169441_g13365938225258_cont_week2b_87_4_alg».proof.Proof.Gen.Kernel.Skeleton
import proofs.«169441_g13365938225258_cont_week2b_87_4_alg».proof.Proof.Gen.Kernel.Launch
import proofs.«169441_g13365938225258_cont_week2b_87_4_alg».proof.Proof.Gen.Kernel.Points
import proofs.«169441_g13365938225258_cont_week2b_87_4_alg».proof.Proof.Gen.Kernel.Frame
import proofs.«169441_g13365938225258_cont_week2b_87_4_alg».proof.Proof.Gen.KernelIdeal
import proofs.«169441_g13365938225258_cont_week2b_87_4_alg».proof.Proof.Gen.KernelIdeal.Skeleton
import proofs.«169441_g13365938225258_cont_week2b_87_4_alg».proof.Proof.Gen.KernelIdeal.Launch
import proofs.«169441_g13365938225258_cont_week2b_87_4_alg».proof.Proof.Gen.KernelIdeal.Points
import proofs.«169441_g13365938225258_cont_week2b_87_4_alg».proof.Proof.Gen.KernelIdeal.Frame
import proofs.«169441_g13365938225258_cont_week2b_87_4_alg».proof.Proof.Gen.ReferenceIdeal
import proofs.«169441_g13365938225258_cont_week2b_87_4_alg».proof.Proof.Gen.Pre_finite_inputs
import proofs.«169441_g13365938225258_cont_week2b_87_4_alg».proof.Proof.Gen.ReferenceIdeal.Run
import proofs.«169441_g13365938225258_cont_week2b_87_4_alg».proof.Proof.RunNamed
import proofs.«169441_g13365938225258_cont_week2b_87_4_alg».proof.Proof.Chain
import proofs.«169441_g13365938225258_cont_week2b_87_4_alg».proof.Proof.Ref
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the launch arrays in their result buffers. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [e0, e1, e2, e3, e4, e5, e6, e7, e8, e9, e10, e11]
    exact Cert.ReferenceIdeal.RefValue.result_eq (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      Cert.KernelIdeal.Gen.shapeCasts_S64_S1x64 Cert.KernelIdeal.Gen.shapeCasts_S64_S1x64 Cert.KernelIdeal.Gen.shapeCasts_S64_S1x64
      Cert.KernelIdeal.Gen.shapeCasts_S128_S1x128 Cert.KernelIdeal.Gen.shapeCasts_S40_S1x40

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
